-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x1 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S400x10000 : Shape := ⟨2, ![400, 10000]⟩
abbrev S400x128 : Shape := ⟨2, ![400, 128]⟩
abbrev S10000 : Shape := ⟨1, ![10000]⟩
abbrev S10000x1 : Shape := ⟨2, ![10000, 1]⟩
abbrev S1 : Shape := ⟨1, ![1]⟩
abbrev S1x1 : Shape := ⟨2, ![1, 1]⟩

abbrev nBuf : Space → Nat
  | .hbm => 10
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128x1_S1x128 : S128x1.ShapeCasts S1x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  reduces_S1x128_S1 : S1x128.Reduces [1] S1
  shapeCasts_S1_S1x1 : S1.ShapeCasts S1x1
  broadcasts_S1x1_S1x128 : S1x1.Broadcasts S1x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S10000x1 : Shape := ⟨2, ![10000, 1]⟩
abbrev S_ : Shape := ⟨0, ![]⟩
abbrev S1 : Shape := ⟨1, ![1]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S128, .f32⟩
  | .hbm, ⟨6, _⟩ => ⟨S10000x1, .f32⟩
  | .hbm, ⟨7, _⟩ => ⟨S10000x1, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S_, .f32⟩
  | .hbm, ⟨13, _⟩ => ⟨S10000x1, .f32⟩
  | .hbm, ⟨14, _⟩ => ⟨S10000x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S128, .f32⟩
  | .hbm, ⟨27, _⟩ => ⟨S128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S10000x1 : S_.BroadcastsInDim S10000x1 (![] : Fin 0 → Fin S10000x1.rank)
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x1_S10000x1_1_0_0_1_n_n_wf : DotDims.WF S10000x128 S128x1 S10000x1 [1] [0] [0] [1] [] []
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GraphConvSpec.lean ====
/-
  The graph convolution with node and feature attention, as one function of its six arguments on the extended reals.

  Every row `r` of `X` gets a weight `nodeAtt r`, the logistic function of the row's dot product with `nw`; every
  feature `k` gets a weight `semAtt k`, the softmax of `sw` (the exponentials of `sw` shifted by its largest entry,
  divided by their sum). The weighted rows are multiplied by `W` (`support`), the result by the adjacency matrix `A`,
  and the bias `b` is added along the rows (`result`). The two sums run over `Fin 128` and `Fin 10000`; nothing here
  depends on how a program tiles or orders them.
-/
import Idealize.ShloMosaic.PureOps.Ideal
import Idealize.ShloMosaic.Lib.ValueIdx

noncomputable section

open scoped BigOperators

namespace Cert.GraphConv

open Idealize.ShloMosaic

/-- The value the two maximum folds start from: the f32 word of minus infinity, kept as its word. -/
abbrev floor32 : EReal := Ideal.ofBits .f32 0xFF800000#32

variable (X : Fin 10000 → Fin 128 → EReal) (A : Fin 10000 → Fin 10000 → EReal) (W : Fin 128 → Fin 128 → EReal)
  (b nw sw : Fin 128 → EReal)

/-- Row `r` of `X` against the node weights. -/
def rowDot (r : Fin 10000) : EReal := ∑ k : Fin 128, X r k * nw k

/-- The node attention of row `r`: the logistic function of that dot product. -/
def nodeAtt (r : Fin 10000) : EReal := Ideal.logistic (rowDot X nw r)

/-- The largest entry of `sw`, as the softmax takes it: the fold of `max` from minus infinity, once more against it. -/
def peak : EReal := max floor32 ((Finset.univ : Finset (Fin 128)).fold max floor32 sw)

/-- The exponential of entry `k` of `sw`, shifted by the largest entry. -/
def expShift (k : Fin 128) : EReal := Ideal.exp (sw k - peak sw)

/-- The feature attention of feature `k`: the softmax of `sw` at `k`. -/
def semAtt (k : Fin 128) : EReal := Ideal.div (expShift sw k) (∑ l : Fin 128, expShift sw l)

/-- Row `r` of `X`, weighted by both attentions, times column `f` of `W`. -/
def support (r : Fin 10000) (f : Fin 128) : EReal := ∑ k : Fin 128, X r k * nodeAtt X nw r * semAtt sw k * W k f

/-- Row `r` of `A` times column `f` of a matrix `S`, plus the bias of feature `f`. -/
def aggregate (S : Fin 10000 → Fin 128 → EReal) (r : Fin 10000) (f : Fin 128) : EReal :=
  (∑ n : Fin 10000, A r n * S n f) + b f

/-- The layer's result at row `r`, feature `f`. -/
def result (r : Fin 10000) (f : Fin 128) : EReal := aggregate A b (support X W nw sw) r f

end Cert.GraphConv

end
-- ==== Proof.CasePieces.lean ====
/-
  What one run of the kernel body leaves behind, in each of its two cases, as values.

  At the first grid point the body computes the support matrix from the whole of `x`, the node weights, the feature
  weights and `W`, stores it in the scratch buffer that is carried across grid points, reads it back, and stores into
  the output block the product of the adjacency rows of the point with it, plus the bias. At every other point it only
  does the second part, from whatever the scratch buffer holds, and leaves the scratch buffer alone. Each store covers
  its buffer whole, so what a buffer holds afterwards is the stored value itself.
-/
import proofs.«162851_g29283087024202_cont_9to1_711_2_alg».proof.Proof.Gen.KernelIdeal.Frame
import Idealize.ShloMosaic.Lib.Pipeline.Value
import Idealize.ShloMosaic.Lib.Tactic

noncomputable section

namespace Cert.GraphConv.Pieces

open Cert.KernelIdeal Cert.KernelIdeal.Gen Idealize.ShloMosaic Idealize.ShloMosaic.TcCoe Idealize.SL.Sem

variable {F : FTy → Type} [FloatOps F]

/-- The zero offsets of a whole-buffer access. -/
theorem hz : (![0, 0] : Fin 2 → Nat) = fun _ => 0 := funext fun a => by fin_cases a <;> rfl

/-- First point: the scratch buffer ends holding the support matrix computed from the loaded blocks. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (hc0 : cond0_0 i) (x0 : Vec F S10000x128 .f32) (x1 : Vec F S400x10000 .f32) (x2 : Vec F S128x128 .f32) (x3 : Vec F S1x128 .f32) (x4 : Vec F S1x128 .f32) (x5 : Vec F S1x128 .f32) :
    sout0_A_0 c i arg1 harg1 arg2 harg2 arg3 harg3 arg4 harg4 arg5 harg5 arg6 harg6 arg7 harg7 arg8 harg8 hc0 x0 x1 x2 x3 x4 x5 = k0_pay1 x0 x4 x5 x2 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz]
  simp only [View.readAt_eq_ld, harg1.read_unread, harg3.read_unread, harg5.read_unread, harg6.read_unread,
    View.ld_unit_zero (S := S10000x128) hz, View.ld_unit_zero (S := S1x128) hz, View.ld_unit_zero (S := S128x128) hz]

/-- First point: the output block ends holding the aggregation of that same support matrix (the body reads back what it
    has just stored in the scratch buffer). -/
theorem out_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (hc0 : cond0_0 i) (x0 : Vec F S10000x128 .f32) (x1 : Vec F S400x10000 .f32) (x2 : Vec F S128x128 .f32) (x3 : Vec F S1x128 .f32) (x4 : Vec F S1x128 .f32) (x5 : Vec F S1x128 .f32) :
    out0_A_6 c i arg1 harg1 arg2 harg2 arg3 harg3 arg4 harg4 arg5 harg5 arg6 harg6 arg7 harg7 arg8 harg8 hc0 x0 x1 x2 x3 x4 x5 = k0_pay2 x1 (k0_pay1 x0 x4 x5 x2) x3 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero (S := S400x128) hz, View.readCov_unit_zero (S := S10000x128) _ hz]
  simp only [View.readAt_eq_ld, harg1.read_unread, harg2.read_unread, harg3.read_unread, harg4.read_unread, harg5.read_unread,
    harg6.read_unread, View.ld_unit_zero (S := S10000x128) hz, View.ld_unit_zero (S := S1x128) hz,
    View.ld_unit_zero (S := S128x128) hz, View.ld_unit_zero (S := S400x10000) hz]

/-- Every later point: the output block ends holding the aggregation of what the scratch buffer held on entry. -/
theorem out_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (hc0 : ¬cond0_0 i) (x0 : Vec F S10000x128 .f32) (x1 : Vec F S400x10000 .f32) (x2 : Vec F S128x128 .f32) (x3 : Vec F S1x128 .f32) (x4 : Vec F S1x128 .f32) (x5 : Vec F S1x128 .f32) (xs0 : Vec F S10000x128 .bf16) :
    out0_B_6 c i arg1 harg1 arg2 harg2 arg3 harg3 arg4 harg4 arg5 harg5 arg6 harg6 arg7 harg7 arg8 harg8 hc0 x0 x1 x2 x3 x4 x5 xs0 = k0_pay2 x1 xs0 x3 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  rw [View.canon_unit_zero hz]
  simp only [View.readAt_eq_ld, harg2.read_unread, harg4.read_unread, harg8.read_unread, View.ld_unit_zero (S := S400x10000) hz,
    View.ld_unit_zero (S := S10000x128) hz, View.ld_unit_zero (S := S1x128) hz]

end Cert.GraphConv.Pieces

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.SupportPayload.lean ====
/-
  The value the kernel stores in its scratch buffer at the first grid point, read at an index: the support matrix.

  The body multiplies `x` by the node weights laid along the rows and sums each row; the logistic function of the row sum,
  kept as a column, is spread back over the row. Beside it, the feature weights' softmax is computed on one row of 128
  entries (largest entry, shifted exponentials, their sum, the quotient) and spread over all rows. `x` times both, times
  `W`, is the stored value. Read at `(r, f)` this is `Cert.GraphConv.support` of the loaded blocks by coordinates; the
  change of float format before the store is the identity on the extended reals.
-/
import proofs.«162851_g29283087024202_cont_9to1_711_2_alg».proof.Proof.Gen.KernelIdeal.Skeleton
import proofs.«162851_g29283087024202_cont_9to1_711_2_alg».proof.Proof.GraphConvSpec
import proofs.«162851_g29283087024202_cont_9to1_711_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphConv.Kernel

open Cert.KernelIdeal Cert.KernelIdeal.Gen Idealize.ShloMosaic Idealize.ShloMosaic.ValueIdx Cert.GraphConv Cert.Lib.Column

variable (x0 : FVec Ideal S10000x128 .f32) (x4 x5 : FVec Ideal S1x128 .f32) (x2 : FVec Ideal S128x128 .f32)

/-! ## The loaded blocks by coordinates -/

/-- A block of shape [10000, 128] by row and feature. -/
abbrev Xof : Fin 10000 → Fin 128 → EReal := fun r k => x0 (ix2 r k)
/-- A block of shape [128, 128] by input and output feature. -/
abbrev Wof : Fin 128 → Fin 128 → EReal := fun k f => x2 (ix2 k f)
/-- A block of shape [1, 128], one row, by feature. -/
abbrev rowOf (v : FVec Ideal S1x128 .f32) : Fin 128 → EReal := fun k => v (ix2 (0 : Fin 1) k)

/-! ## The stored value, one operation after another -/

/-- `x` times the node weights along the rows, summed along each row. -/
def rowSums : FVec Ideal S10000 .f32 :=
  multiReduction .add [1] S10000
    (mulf x0 (broadcastTo S10000x128 (shapeCast S1x128 x4 shapeCasts_S1x128_S1x128) broadcasts_S1x128_S10000x128))
    0x00000000#32 reduces_S10000x128_S10000 (.inl rfl) rfl

/-- The node attention as a column. -/
def nodeCol : FVec Ideal S10000x1 .f32 := logistic (shapeCast S10000x1 (rowSums x0 x4) shapeCasts_S10000_S10000x1)

/-- The feature weights' row. -/
def swRow : FVec Ideal S1x128 .f32 := shapeCast S1x128 x5 shapeCasts_S1x128_S1x128

/-- Its largest entry. -/
def peakVec : FVec Ideal S1 .f32 :=
  maximumf (broadcast S1 (Scalar.ofBits .f32 0xFF800000#32))
    (multiReduction .maximumf [1] S1 (swRow x5) 0xFF800000#32 reduces_S1x128_S1 (.inl rfl) rfl)

/-- The shifted exponentials. -/
def expRow : FVec Ideal S1x128 .f32 :=
  exp (subf (swRow x5) (broadcastTo S1x128 (shapeCast S1x1 (peakVec x5) shapeCasts_S1_S1x1) broadcasts_S1x1_S1x128))

/-- Their sum. -/
def expSum : FVec Ideal S1 .f32 := multiReduction .add [1] S1 (expRow x5) 0x00000000#32 reduces_S1x128_S1 (.inl rfl) rfl

/-- The feature attention as a row. -/
def semRow : FVec Ideal S1x128 .f32 :=
  divf (expRow x5) (broadcastTo S1x128 (shapeCast S1x1 (expSum x5) shapeCasts_S1_S1x1) broadcasts_S1x1_S1x128)

/-- `x` weighted by both attentions. -/
def weightedX : FVec Ideal S10000x128 .f32 :=
  mulf (mulf x0 (broadcastTo S10000x128 (nodeCol x0 x4) broadcasts_S10000x1_S10000x128))
    (broadcastTo S10000x128 (semRow x5) broadcasts_S1x128_S10000x128)

/-- The stored value is the weighted `x` times `W`, in the scratch buffer's format. -/
theorem pay1_eq : k0_pay1 (F := Ideal) x0 x4 x5 x2
    = shapeCast S10000x128 (truncf .bf16 (matmul dot_S10000x128_S128x128_S10000x128_1_0_0_1_n_n none (weightedX x0 x4 x5) x2
        (constant S10000x128 .f32 0x00000000#32)) bitsLt_bf16_f32) shapeCasts_S10000x128_S10000x128 := rfl

/-! ## Each operation at an index -/

/-- A row sum is the row's dot product with the node weights. -/
theorem rowSums_apply (r : Fin 10000) : rowSums x0 x4 (ix1 r) = rowDot (Xof x0) (rowOf x4) r := by
  unfold rowSums rowDot
  refine (Ideal.multiReduction_add_single _ _ reduces_S10000x128_S10000 (.inl rfl) rfl (ix1 r)).trans ?_
  refine Finset.sum_congr rfl fun (k : Fin 128) _ => ?_
  have hl : reduces_S10000x128_S10000.lift (ix1 r) k = ix2 r k := funext fun a => by
    match a with
    | ⟨0, _⟩ => exact Fin.ext rfl
    | ⟨1, _⟩ => exact Fin.ext rfl
  rw [hl, mulf_apply, broadcastTo_1b_ab_apply, shapeCast_self]

/-- The node attention column at row `r`. -/
theorem nodeCol_apply (r : Fin 10000) (u : Fin 1) : nodeCol x0 x4 (ix2 r u) = nodeAtt (Xof x0) (rowOf x4) r := by
  unfold nodeCol nodeAtt
  show Ideal.logistic (shapeCast S10000x1 (rowSums x0 x4) shapeCasts_S10000_S10000x1 (ix2 r u)) = _
  rw [shapeCast_a_a1_apply, rowSums_apply]

/-- The largest entry of the feature weights' row. -/
theorem peakVec_apply (u : Fin 1) : peakVec x5 (ix1 u) = peak (rowOf x5) := by
  unfold peakVec peak
  show max (Ideal.ofBits .f32 0xFF800000#32) (multiReduction .maximumf [1] S1 (swRow x5) 0xFF800000#32 reduces_S1x128_S1 (.inl rfl) rfl (ix1 u)) = _
  refine congrArg (max floor32) ?_
  refine (Ideal.multiReduction_maximumf_single _ _ reduces_S1x128_S1 (.inl rfl) rfl (ix1 u)).trans ?_
  refine Finset.fold_congr fun (k : Fin 128) _ => ?_
  have hl : reduces_S1x128_S1.lift (ix1 u) k = ix2 (0 : Fin 1) k := funext fun a => by
    match a with
    | ⟨0, _⟩ => exact Fin.ext (by show u.val = 0; omega)
    | ⟨1, _⟩ => exact Fin.ext rfl
  show swRow x5 (reduces_S1x128_S1.lift (ix1 u) k) = _
  rw [hl]
  unfold swRow
  rw [shapeCast_self]

/-- A shifted exponential. -/
theorem expRow_apply (k : Fin 128) : expRow x5 (ix2 (0 : Fin 1) k) = expShift (rowOf x5) k := by
  unfold expRow expShift
  show Ideal.exp (swRow x5 (ix2 (0 : Fin 1) k)
    - broadcastTo S1x128 (shapeCast S1x1 (peakVec x5) shapeCasts_S1_S1x1) broadcasts_S1x1_S1x128 (ix2 (0 : Fin 1) k)) = _
  rw [broadcastTo_a1_ab_apply, shapeCast_a_a1_apply, peakVec_apply]
  unfold swRow
  rw [shapeCast_self]

/-- The sum of the shifted exponentials. -/
theorem expSum_apply (u : Fin 1) : expSum x5 (ix1 u) = ∑ l : Fin 128, expShift (rowOf x5) l := by
  unfold expSum
  refine (Ideal.multiReduction_add_single _ _ reduces_S1x128_S1 (.inl rfl) rfl (ix1 u)).trans ?_
  refine Finset.sum_congr rfl fun (k : Fin 128) _ => ?_
  have hl : reduces_S1x128_S1.lift (ix1 u) k = ix2 (0 : Fin 1) k := funext fun a => by
    match a with
    | ⟨0, _⟩ => exact Fin.ext (by show u.val = 0; omega)
    | ⟨1, _⟩ => exact Fin.ext rfl
  rw [hl, expRow_apply]

/-- The feature attention row at feature `k`. -/
theorem semRow_apply (k : Fin 128) : semRow x5 (ix2 (0 : Fin 1) k) = semAtt (rowOf x5) k := by
  unfold semRow semAtt
  show Ideal.div (expRow x5 (ix2 (0 : Fin 1) k))
    (broadcastTo S1x128 (shapeCast S1x1 (expSum x5) shapeCasts_S1_S1x1) broadcasts_S1x1_S1x128 (ix2 (0 : Fin 1) k)) = _
  rw [broadcastTo_a1_ab_apply, shapeCast_a_a1_apply, expSum_apply, expRow_apply]

/-- A weighted entry of `x`. -/
theorem weightedX_apply (r : Fin 10000) (k : Fin 128) :
    weightedX x0 x4 x5 (ix2 r k) = Xof x0 r k * nodeAtt (Xof x0) (rowOf x4) r * semAtt (rowOf x5) k := by
  unfold weightedX
  show x0 (ix2 r k) * broadcastTo S10000x128 (nodeCol x0 x4) broadcasts_S10000x1_S10000x128 (ix2 r k)
    * broadcastTo S10000x128 (semRow x5) broadcasts_S1x128_S10000x128 (ix2 r k) = _
  rw [broadcastTo_a1_ab_apply, broadcastTo_1b_ab_apply, nodeCol_apply, semRow_apply]

/-- The left operand's index at output index `i` keeps `i`'s row. -/
theorem lhsSup_row (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Its column is the contraction coordinate. -/
theorem lhsSup_col (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction coordinate, -/
theorem rhsSup_row (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
/-- and its column is `i`'s column. -/
theorem rhsSup_col (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- THE STORED VALUE at row `r`, feature `f`: the support matrix of the loaded blocks. -/
theorem pay1_apply (r : Fin 10000) (f : Fin 128) :
    k0_pay1 (F := Ideal) x0 x4 x5 x2 (ix2 r f) = support (Xof x0) (Wof x2) (rowOf x4) (rowOf x5) r f := by
  rw [pay1_eq, shapeCast_self]
  show matmul dot_S10000x128_S128x128_S10000x128_1_0_0_1_n_n none (weightedX x0 x4 x5) x2 (constant S10000x128 .f32 0x00000000#32) (ix2 r f) = _
  refine (Ideal.matmul_constant_zero_apply dot_S10000x128_S128x128_S10000x128_1_0_0_1_n_n none (weightedX x0 x4 x5) x2 (ix2 r f)).trans ?_
  unfold support
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r f) ((contrEquiv1 dot_S10000x128_S128x128_S10000x128_1_0_0_1_n_n 128 rfl rfl).symm k) = ix2 r k := funext fun a => Fin.ext (by
    match a with
    | ⟨0, _⟩ => exact lhsSup_row _ _
    | ⟨1, _⟩ => exact (lhsSup_col _ _).trans hk)
  have er : dot_S10000x128_S128x128_S10000x128_1_0_0_1_n_n.rhsIdx (ix2 r f) ((contrEquiv1 dot_S10000x128_S128x128_S10000x128_1_0_0_1_n_n 128 rfl rfl).symm k) = ix2 k f := funext fun a => Fin.ext (by
    match a with
    | ⟨0, _⟩ => exact (rhsSup_row _ _).trans hk
    | ⟨1, _⟩ => exact rhsSup_col _ _)
  rw [el, er, weightedX_apply]

end Cert.GraphConv.Kernel

end
-- ==== Proof.AggregatePayload.lean ====
/-
  The value the kernel stores in its output block at every grid point, read at an index.

  The block of 400 adjacency rows is multiplied by what the scratch buffer holds, a [10000, 128] matrix, and the bias row
  is added along the rows. At `(p, f)` that is the sum over all 10000 columns `n` of the adjacency entry `(p, n)` times
  the scratch entry `(n, f)`, plus the bias of feature `f`; the change of float format on the way into the product is
  the identity on the extended reals.
-/
import proofs.«162851_g29283087024202_cont_9to1_711_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphConv.Kernel

open Cert.KernelIdeal Cert.KernelIdeal.Gen Idealize.ShloMosaic Idealize.ShloMosaic.ValueIdx

/-- The left operand's index at output index `i` keeps `i`'s row. -/
theorem lhsAgg_row (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Its column is the contraction coordinate. -/
theorem lhsAgg_col (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row is the contraction coordinate, -/
theorem rhsAgg_row (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
/-- and its column is `i`'s column. -/
theorem rhsAgg_col (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- THE STORED BLOCK at row `p` of the block, feature `f`. -/
theorem pay2_apply (x1 : FVec Ideal S400x10000 .f32) (xs : FVec Ideal S10000x128 .bf16) (x3 : FVec Ideal S1x128 .f32)
    (p : Fin 400) (f : Fin 128) :
    k0_pay2 (F := Ideal) x1 xs x3 (ix2 p f) = (∑ n : Fin 10000, x1 (ix2 p n) * xs (ix2 n f)) + x3 (ix2 (0 : Fin 1) f) := by
  show matmul dot_S400x10000_S10000x128_S400x128_1_0_0_1_n_n none (truncf .bf16 x1 bitsLt_bf16_f32) xs (constant S400x128 .f32 0x00000000#32) (ix2 p f)
    + broadcastTo S400x128 (shapeCast S1x128 x3 shapeCasts_S1x128_S1x128) broadcasts_S1x128_S400x128 (ix2 p f) = _
  rw [broadcastTo_1b_ab_apply, shapeCast_self]
  refine congrArg (· + x3 (ix2 (0 : Fin 1) f)) ?_
  refine (Ideal.matmul_constant_zero_apply dot_S400x10000_S10000x128_S400x128_1_0_0_1_n_n none (truncf .bf16 x1 bitsLt_bf16_f32) xs (ix2 p f)).trans ?_
  rw [← Equiv.sum_comp (contrEquiv1 dot_S400x10000_S10000x128_S400x128_1_0_0_1_n_n 10000 rfl rfl).symm]
  refine Finset.sum_congr rfl fun n _ => ?_
  have hn := contrEquiv1_symm_val dot_S400x10000_S10000x128_S400x128_1_0_0_1_n_n 10000 rfl rfl n
  have el : dot_S400x10000_S10000x128_S400x128_1_0_0_1_n_n.lhsIdx (ix2 p f) ((contrEquiv1 dot_S400x10000_S10000x128_S400x128_1_0_0_1_n_n 10000 rfl rfl).symm n) = ix2 p n := funext fun a => Fin.ext (by
    match a with
    | ⟨0, _⟩ => exact lhsAgg_row _ _
    | ⟨1, _⟩ => exact (lhsAgg_col _ _).trans hn)
  have er : dot_S400x10000_S10000x128_S400x128_1_0_0_1_n_n.rhsIdx (ix2 p f) ((contrEquiv1 dot_S400x10000_S10000x128_S400x128_1_0_0_1_n_n 10000 rfl rfl).symm n) = ix2 n f := funext fun a => Fin.ext (by
    match a with
    | ⟨0, _⟩ => exact (rhsAgg_row _ _).trans hn
    | ⟨1, _⟩ => exact rhsAgg_col _ _)
  rw [el, er]
  rfl

end Cert.GraphConv.Kernel

end
-- ==== Proof.LibColumnToRow.lean ====
/-
  A column viewed as a row, read at an index.

  An `[a, 1]` column cast to a `[1, a]` row keeps the row-major order of its entries: the row's entry `(0, i)` is the
  column's entry `(i, 0)`, both at position `i`.
-/
import Idealize.ShloMosaic.Lib.Pipeline.Value
import Idealize.ShloMosaic.Lib.ValueIdx

namespace Cert.Lib.ColumnToRow

open Idealize.ShloMosaic Idealize.ShloMosaic.ValueIdx

variable {α : Type}

/-- An `[a, 1]` column cast to `[1, a]` reads, at `(u, i)`, the column's entry of row `i`, whatever the unit coordinate `u`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.Lib.ColumnToRow
-- ==== Proof.EntryArrays.lean ====
/-
  What the kernel's region finds in the three row-shaped arrays the host prepares for it.

  Before the region the host reshapes the node weights, a [128, 1] column, the feature weights and the bias, vectors of
  length 128, each into a [1, 128] row. A reshape keeps the row-major order, so entry `(0, k)` of each row is entry
  `(k, 0)` of the column, respectively entry `k` of the vector.
-/
import proofs.«162851_g29283087024202_cont_9to1_711_2_alg».proof.Proof.Gen.KernelIdeal.Frame
import proofs.«162851_g29283087024202_cont_9to1_711_2_alg».proof.Proof.LibColumnToRow
import Idealize.ShloMosaic.Lib.Pipeline.Value
import Idealize.ShloMosaic.Lib.ValueLayout
import Idealize.ShloMosaic.Lib.StableHlo.Run
import Idealize.ShloMosaic.Lib.Tactic
import Idealize.ShloMosaic.PureOps.Ideal

noncomputable section

namespace Cert.GraphConv.Entry

open Cert.KernelIdeal Cert.KernelIdeal.Gen Idealize.ShloMosaic Idealize.ShloMosaic.TcCoe Idealize.SL.Sem
open Idealize.ShloMosaic.StableHlo Idealize.ShloMosaic.ValueIdx Cert.Lib.ColumnToRow

variable (m : (ℓ : Loc nD τ sig) → Buf (Elt Ideal) ℓ)

/-- The node weights' row is the reshape of the column argument. -/
theorem nodeRow_eq (c : Dev nD) : (V m c main_call0_v0 : S1x128.Idx → EReal)
    = shapeCast S1x128 (m ((c : Thread nD τ).loc main_arg4)) shapeCasts_S128x1_S1x128 := by
  dsimp only [Gen.V, Gen.hostOps0]
  after_results
  rfl

/-- The feature weights' row is the reshape of the vector argument. -/
theorem semRow_eq (c : Dev nD) : (V m c main_call0_v1 : S1x128.Idx → EReal)
    = shapeCast S1x128 (m ((c : Thread nD τ).loc main_arg5)) shapeCasts_S128_S1x128 := by
  dsimp only [Gen.V, Gen.hostOps0]
  after_results
  rfl

/-- The bias row is the reshape of the vector argument. -/
theorem biasRow_eq (c : Dev nD) : (V m c main_call0_v2 : S1x128.Idx → EReal)
    = shapeCast S1x128 (m ((c : Thread nD τ).loc main_arg3)) shapeCasts_S128_S1x128 := by
  dsimp only [Gen.V, Gen.hostOps0]
  after_results
  rfl

/-- Entry `(0, k)` of the node weights' row is entry `(k, 0)` of the column. -/
theorem nodeRow_apply (c : Dev nD) (k : Fin 128) :
    (V m c main_call0_v0 : S1x128.Idx → EReal) (ix2 (0 : Fin 1) k) = m ((c : Thread nD τ).loc main_arg4) (ix2 k (0 : Fin 1)) :=
  (congrFun (nodeRow_eq m c) (ix2 (0 : Fin 1) k)).trans (shapeCast_a1_1a_apply _ _ 0 k)

/-- Entry `(0, k)` of the feature weights' row is entry `k` of the vector. -/
theorem semRow_apply (c : Dev nD) (k : Fin 128) :
    (V m c main_call0_v1 : S1x128.Idx → EReal) (ix2 (0 : Fin 1) k) = m ((c : Thread nD τ).loc main_arg5) (ix1 k) :=
  (congrFun (semRow_eq m c) (ix2 (0 : Fin 1) k)).trans (shapeCast_a_1a_apply _ _ 0 k)

/-- Entry `(0, f)` of the bias row is entry `f` of the vector. -/
theorem biasRow_apply (c : Dev nD) (f : Fin 128) :
    (V m c main_call0_v2 : S1x128.Idx → EReal) (ix2 (0 : Fin 1) f) = m ((c : Thread nD τ).loc main_arg3) (ix1 f) :=
  (congrFun (biasRow_eq m c) (ix2 (0 : Fin 1) f)).trans (shapeCast_a_1a_apply _ _ 0 f)

end Cert.GraphConv.Entry

end
-- ==== Proof.KernelValue.lean ====
/-
  The kernel's result array after its run is the specification `Cert.GraphConv.result` of its arguments.

  The grid has 25 points; point `t` owns rows `400 t … 400 t + 399` of the result. The blocks of `x`, `W` and the three
  rows the host prepared never move, so every point sees the whole of them; the adjacency block of point `t` is rows
  `400 t …` of the adjacency matrix. The first point fills the scratch buffer with the support matrix of the arguments
  and no later point writes it, so by induction over the points the scratch buffer holds that matrix after every point.
  Hence the block point `t` writes back is, at `(p, f)`, the adjacency row `400 t + p` times column `f` of the support
  matrix plus the bias of `f`: block `t` of the specification. The 25 blocks cover the result array.
-/
import proofs.«162851_g29283087024202_cont_9to1_711_2_alg».proof.Proof.Gen.KernelIdeal.Value
import proofs.«162851_g29283087024202_cont_9to1_711_2_alg».proof.Proof.GraphConvSpec
import proofs.«162851_g29283087024202_cont_9to1_711_2_alg».proof.Proof.CasePieces
import proofs.«162851_g29283087024202_cont_9to1_711_2_alg».proof.Proof.SupportPayload
import proofs.«162851_g29283087024202_cont_9to1_711_2_alg».proof.Proof.AggregatePayload
import proofs.«162851_g29283087024202_cont_9to1_711_2_alg».proof.Proof.EntryArrays
import Idealize.ShloMosaic.Lib.Pipeline.Value
import Idealize.ShloMosaic.Lib.ValueIdx

noncomputable section

open scoped BigOperators

namespace Cert.GraphConv.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.GraphConv

variable (m : (ℓ : Loc nD τ sig) → Buf (Elt Ideal) ℓ) (ρ : Dev nD → PrngReg)

/-! ## The arguments by coordinates, and the result they determine -/

/-- `x` by row and feature. -/
abbrev argX (c : Dev nD) : Fin 10000 → Fin 128 → EReal := fun r k => m ((c : Thread nD τ).loc main_arg0) (ix2 r k)
/-- The adjacency matrix by row and column. -/
abbrev argA (c : Dev nD) : Fin 10000 → Fin 10000 → EReal := fun r n => m ((c : Thread nD τ).loc main_arg1) (ix2 r n)
/-- `W` by input and output feature. -/
abbrev argW (c : Dev nD) : Fin 128 → Fin 128 → EReal := fun k f => m ((c : Thread nD τ).loc main_arg2) (ix2 k f)
/-- The bias by feature. -/
abbrev argB (c : Dev nD) : Fin 128 → EReal := fun f => m ((c : Thread nD τ).loc main_arg3) (ix1 f)
/-- The node weights by feature. -/
abbrev argNw (c : Dev nD) : Fin 128 → EReal := fun k => m ((c : Thread nD τ).loc main_arg4) (ix2 k (0 : Fin 1))
/-- The feature weights by feature. -/
abbrev argSw (c : Dev nD) : Fin 128 → EReal := fun k => m ((c : Thread nD τ).loc main_arg5) (ix1 k)

/-- The specification as contents of the result array. -/
abbrev G (c : Dev nD) : Buf (Elt Ideal) ((c : Thread nD τ).loc main_v0) :=
  fun i => result (argX m c) (argA m c) (argW m c) (argB m c) (argNw m c) (argSw m c) (i 0) (i 1)

/-! ## The windows' blocks -/

/-- The printed index maps over the grid: only the adjacency block and the output block move, one block per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s blocks is row `400 t + p` of the arrays. -/
def rowAt (t : Fin cfg0.N) (p : Fin 400) : Fin 10000 :=
  ⟨400 * t.val + p.val, by have h := lt_of_lt_of_eq t.isLt (show cfg0.N = 25 from N_0); have := p.isLt; omega⟩

/-- Point `t`'s adjacency block, as an array of extended reals. -/
abbrev adjBlk (c : Dev nD) (t : Fin cfg0.N) : S400x10000.Idx → EReal := iblk m c 1 t
/-- Point `t`'s bias block, as an array of extended reals. -/
abbrev biasBlk (c : Dev nD) (t : Fin cfg0.N) : S1x128.Idx → EReal := iblk m c 3 t

/-- Every point sees the whole of `x`. -/
theorem blkX (c : Dev nD) (t : Fin cfg0.N) (r : Fin 10000) (k : Fin 128) :
    (iblk m c 0 t : S10000x128.Idx → EReal) (ix2 r k) = argX m c r k := by
  obtain ⟨h0, h1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 10000 + 1 * r.val = r.val; omega
  | ⟨1, _⟩ => show win0_0.index t (1 : Fin 2) * 128 + 1 * k.val = k.val; omega

/-- Point `t`'s adjacency block is rows `400 t …` of the adjacency matrix. -/
theorem blkA (c : Dev nD) (t : Fin cfg0.N) (p : Fin 400) (n : Fin 10000) :
    adjBlk m c t (ix2 p n) = argA m c (rowAt t p) n := by
  obtain ⟨-, -, h0, h1, -⟩ := idx_facts t
  show V m c main_arg1 (((cfg0.win 1).blk t).view.emb (ix2 p n)) = _
  rw [V_main_arg1]
  refine congrArg _ (funext fun a => Fin.ext ?_)
  match a with
  | ⟨0, _⟩ => show win0_1.index t (0 : Fin 2) * 400 + 1 * p.val = 400 * t.val + p.val; omega
  | ⟨1, _⟩ => show win0_1.index t (1 : Fin 2) * 10000 + 1 * n.val = n.val; omega

/-- Every point sees the whole of `W`. -/
theorem blkW (c : Dev nD) (t : Fin cfg0.N) (k f : Fin 128) :
    (iblk m c 2 t : S128x128.Idx → EReal) (ix2 k f) = argW m c k f := by
  obtain ⟨-, -, -, -, h0, h1, -⟩ := idx_facts t
  show V m c main_arg2 (((cfg0.win 2).blk t).view.emb (ix2 k f)) = _
  rw [V_main_arg2]
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * f.val = f.val; omega

/-- Every point sees the bias row. -/
theorem blkB (c : Dev nD) (t : Fin cfg0.N) (f : Fin 128) :
    biasBlk m c t (ix2 (0 : Fin 1) f) = argB m c f := by
  obtain ⟨-, -, -, -, -, -, h0, h1, -⟩ := idx_facts t
  show V m c main_call0_v2 (((cfg0.win 3).blk t).view.emb (ix2 (0 : Fin 1) f)) = _
  refine Eq.trans (congrArg _ (funext fun a => Fin.ext ?_)) (Entry.biasRow_apply m c f)
  match a with
  | ⟨0, _⟩ => show win0_3.index t (0 : Fin 2) * 1 + 1 * 0 = 0; omega
  | ⟨1, _⟩ => show win0_3.index t (1 : Fin 2) * 128 + 1 * f.val = f.val; omega

/-- Every point sees the node weights' row. -/
theorem blkNw (c : Dev nD) (t : Fin cfg0.N) (k : Fin 128) :
    (iblk m c 4 t : S1x128.Idx → EReal) (ix2 (0 : Fin 1) k) = argNw m c k := by
  obtain ⟨-, -, -, -, -, -, -, -, h0, h1, -⟩ := idx_facts t
  show V m c main_call0_v0 (((cfg0.win 4).blk t).view.emb (ix2 (0 : Fin 1) k)) = _
  refine Eq.trans (congrArg _ (funext fun a => Fin.ext ?_)) (Entry.nodeRow_apply m c k)
  match a with
  | ⟨0, _⟩ => show win0_4.index t (0 : Fin 2) * 1 + 1 * 0 = 0; omega
  | ⟨1, _⟩ => show win0_4.index t (1 : Fin 2) * 128 + 1 * k.val = k.val; omega

/-- Every point sees the feature weights' row. -/
theorem blkSw (c : Dev nD) (t : Fin cfg0.N) (k : Fin 128) :
    (iblk m c 5 t : S1x128.Idx → EReal) (ix2 (0 : Fin 1) k) = argSw m c k := by
  obtain ⟨-, -, -, -, -, -, -, -, -, -, h0, h1, -⟩ := idx_facts t
  show V m c main_call0_v1 (((cfg0.win 5).blk t).view.emb (ix2 (0 : Fin 1) k)) = _
  refine Eq.trans (congrArg _ (funext fun a => Fin.ext ?_)) (Entry.semRow_apply m c k)
  match a with
  | ⟨0, _⟩ => show win0_5.index t (0 : Fin 2) * 1 + 1 * 0 = 0; omega
  | ⟨1, _⟩ => show win0_5.index t (1 : Fin 2) * 128 + 1 * k.val = k.val; omega

/-! ## The scratch buffer across the grid points -/

/-- The support matrix as a point computes it from its blocks is the support matrix of the arguments, at any point. -/
theorem pay1_at (c : Dev nD) (t : Fin cfg0.N) (n : Fin 10000) (f : Fin 128) :
    k0_pay1 (F := Ideal) (iblk m c 0 t) (iblk m c 4 t) (iblk m c 5 t) (iblk m c 2 t) (ix2 n f) = support (argX m c) (argW m c) (argNw m c) (argSw m c) n f := by
  refine (Kernel.pay1_apply (iblk m c 0 t) (iblk m c 4 t) (iblk m c 5 t) (iblk m c 2 t) n f).trans ?_
  have eX : Kernel.Xof (iblk m c 0 t) = argX m c := funext fun r => funext fun k => blkX m c t r k
  have eW : Kernel.Wof (iblk m c 2 t) = argW m c := funext fun k => funext fun g => blkW m c t k g
  have eN : Kernel.rowOf (iblk m c 4 t) = argNw m c := funext fun k => blkNw m c t k
  have eS : Kernel.rowOf (iblk m c 5 t) = argSw m c := funext fun k => blkSw m c t k
  rw [eX, eW, eN, eS]

/-- After every grid point the scratch buffer holds the support matrix of the arguments: the first point stores it, and no
    later point writes the buffer (induction over the points). -/
theorem scratch_after (c : Dev nD) : ∀ (k : ℕ) (t : Fin cfg0.N), t.val = k → ∀ (n : Fin 10000) (f : Fin 128),
    (outsAt0 m c t.val t.isLt).2 (ix2 n f) = support (argX m c) (argW m c) (argNw m c) (argSw m c) n f := by
  have hN : cfg0.N = 25 := N_0
  intro k
  induction k with
  | zero =>
    intro t ht n f
    have h0 : t.val % 25 = 0 := by omega
    have e : (outsAt0 m c t.val t.isLt).2
        = k0_pay1 (F := Ideal) (iblk m c 0 t) (iblk m c 4 t) (iblk m c 5 t) (iblk m c 2 t) := by
      rw [outsAt0_A m c t h0]
      dsimp only
      exact Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)
    rw [e]
    exact pay1_at m c t n f
  | succ k ih =>
    intro t ht n f
    have hlt : t.val < 25 := lt_of_lt_of_eq t.isLt hN
    have hB : ¬t.val % 25 = 0 := by omega
    have hprev : t.val - 1 < cfg0.N := Nat.lt_of_le_of_lt (Nat.sub_le _ _) t.isLt
    have e : (outsAt0 m c t.val t.isLt).2 = (outsAt0 m c (t.val - 1) hprev).2 := by
      rw [outsAt0_B m c t hB]
      dsimp only
      rfl
    rw [e]
    exact ih ⟨t.val - 1, hprev⟩ (by show t.val - 1 = k; omega) n f

/-- So after point `t` the output's staging buffer holds, at `(p, f)`, row `p` of the point's adjacency block times column
    `f` of the support matrix, plus the bias of `f`. -/
theorem out_after (c : Dev nD) (t : Fin cfg0.N) (p : Fin 400) (f : Fin 128) :
    (outsAt0 m c t.val t.isLt).1 (ix2 p f)
      = (∑ n : Fin 10000, adjBlk m c t (ix2 p n) * support (argX m c) (argW m c) (argNw m c) (argSw m c) n f) + biasBlk m c t (ix2 (0 : Fin 1) f) := by
  have hN : cfg0.N = 25 := N_0
  by_cases h0 : t.val % 25 = 0
  · have e : (outsAt0 m c t.val t.isLt).1 = k0_pay2 (F := Ideal) (iblk m c 1 t)
        (k0_pay1 (F := Ideal) (iblk m c 0 t) (iblk m c 4 t) (iblk m c 5 t) (iblk m c 2 t)) (iblk m c 3 t) := by
      rw [outsAt0_A m c t h0]
      dsimp only
      exact Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)
    rw [e]
    refine (Kernel.pay2_apply (iblk m c 1 t) _ (iblk m c 3 t) p f).trans ?_
    refine congrArg (· + biasBlk m c t (ix2 (0 : Fin 1) f)) (Finset.sum_congr rfl fun n _ => ?_)
    rw [pay1_at]
  · have hprev : t.val - 1 < cfg0.N := Nat.lt_of_le_of_lt (Nat.sub_le _ _) t.isLt
    have e : (outsAt0 m c t.val t.isLt).1
        = k0_pay2 (F := Ideal) (iblk m c 1 t) (outsAt0 m c (t.val - 1) hprev).2 (iblk m c 3 t) := by
      rw [outsAt0_B m c t h0]
      dsimp only
      exact Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
        (outsAt0 m c (t.val - 1) hprev).2
    rw [e]
    refine (Kernel.pay2_apply (iblk m c 1 t) _ (iblk m c 3 t) p f).trans ?_
    refine congrArg (· + biasBlk m c t (ix2 (0 : Fin 1) f)) (Finset.sum_congr rfl fun n _ => ?_)
    rw [scratch_after m c (t.val - 1) ⟨t.val - 1, hprev⟩ rfl n f]

/-! ## What each point writes back, and the whole array -/

/-- Point `t`'s output block sits at rows `400 t …` of the result array. -/
theorem embOut (t : Fin cfg0.N) (p : Fin 400) (f : Fin 128) :
    ((cfg0.win 6).blk t).view.emb (ix2 p f) = ix2 (rowAt t p) f := by
  obtain ⟨-, -, -, -, -, -, -, -, -, -, -, -, h0, h1⟩ := idx_facts t
  refine funext fun a => Fin.ext ?_
  match a with
  | ⟨0, _⟩ => show win0_6.index t (0 : Fin 2) * 400 + 1 * p.val = 400 * t.val + p.val; omega
  | ⟨1, _⟩ => show win0_6.index t (1 : Fin 2) * 128 + 1 * f.val = f.val; omega

/-- WHAT POINT `t` WRITES BACK is block `t` of the specification. -/
theorem flushed_eq (c : Dev nD) (t : Fin cfg0.N) :
    (dats m 0 c).flushed 6 t = ((cfg0.win 6).blk t).view.read (Elt Ideal) (G m c) := by
  rw [Value.flushed6]
  funext y
  obtain ⟨p, f, rfl⟩ : ∃ (p : Fin 400) (f : Fin 128), y = ix2 p f := ⟨y 0, y 1, eq_ix2 y⟩
  show (outsAt0 m c t.val t.isLt).1 (ix2 p f) = G m c (((cfg0.win 6).blk t).view.emb (ix2 p f))
  rw [embOut, out_after, blkB]
  show _ = aggregate (argA m c) (argB m c) (support (argX m c) (argW m c) (argNw m c) (argSw m c)) (rowAt t p) f
  unfold aggregate
  refine congrArg (· + argB m c f) (Finset.sum_congr rfl fun n _ => ?_)
  rw [blkA]

/-- An index of the result array is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v0).slice (win0_6.rect t)).set ↔ _
  rw [View.set_slice_whole, Rect.mem_set_unit]
  exact Iff.rfl

/-- Row `r` of the result array is written back by point `r / 400`. -/
theorem cover (i : S10000x128.Idx) : ∃ t : Fin cfg0.N, (cfg0.win 6).flush t = true ∧ i ∈ ((cfg0.win 6).blk t).view.set := by
  have hN : cfg0.N = 25 := N_0
  have hi0 : (i 0).val < 10000 := (i 0).isLt
  have hi1 : (i 1).val < 128 := (i 1).isLt
  let t : Fin cfg0.N := ⟨(i 0).val / 400, by rw [hN]; omega⟩
  obtain ⟨-, -, -, -, -, -, -, -, -, -, -, -, h0, h1⟩ := idx_facts t
  have ht : t.val = (i 0).val / 400 := rfl
  refine ⟨t, flush0_6 t, ?_⟩
  rw [mem_blk]
  intro a
  match a with
  | ⟨0, _⟩ =>
    show win0_6.index t (0 : Fin 2) * 400 ≤ (i 0).val ∧ (i 0).val < win0_6.index t (0 : Fin 2) * 400 + 400
    omega
  | ⟨1, _⟩ =>
    show win0_6.index t (1 : Fin 2) * 128 ≤ (i 1).val ∧ (i 1).val < win0_6.index t (1 : Fin 2) * 128 + 128
    omega

/-- THE RESULT ARRAY after the run is the specification of the arguments. -/
theorem final (c : Dev nD) : (dats m 0 c).arrAt 6 cfg0.N = G m c :=
  (dats m 0 c).arrAt_eq_of_cover 6 (G m c) (fun t _ => flushed_eq m c t) (cover)

/-- The run, read: the result array at the specification, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.GraphConv.KernelRun

end
-- ==== Proof.LibVectorReduce.lean ====
/-
  Reductions of a vector to a scalar, read over the vector's one coordinate.

  The index set of the shape `[n]` is in bijection with `Fin n` (an index is `ix1` of its coordinate). So a sum over all
  indices of a vector is a `Fin n`-indexed sum, a fold of a commutative associative operation over all its indices is the
  fold over `Fin n`, and a host reduction of a vector over its axis into the scalar shape — where every index drops to
  the one result index — is that fold from the initial value. In this form a reduction of a vector can be compared,
  term by term, with a reduction along one axis of a larger array.
-/
import Idealize.ShloMosaic.Lib.ValueIdx
import Idealize.ShloMosaic.PureOps.Reduce

open scoped BigOperators

namespace Cert.Lib.VectorReduce

open Idealize.ShloMosaic Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate, -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- … and a fold of a commutative associative operation over it is the fold over the coordinate. -/
theorem fold_idx1 {α : Type} (op : α → α → α) [Std.Commutative op] [Std.Associative op] {n : Nat} (b : α)
    (f : (⟨1, ![n]⟩ : Shape).Idx → α) :
    (Finset.univ : Finset (⟨1, ![n]⟩ : Shape).Idx).fold op b f = (Finset.univ : Finset (Fin n)).fold op b fun a => f (ix1 a) := by
  rw [← Finset.map_univ_equiv (idxEquiv1 (n := n)).symm, Finset.fold_map]
  rfl

/-- A host reduction of a vector into the scalar shape, with a commutative associative body, is the fold from the
    initial value's element over the vector's coordinate: every index of the vector drops to the one result index. -/
theorem hostReduce_vector_scalar {α : Type} {n : Nat} {u : Shape} {axes : List (Fin (⟨1, ![n]⟩ : Shape).rank)}
    (f : α → α → α) [Std.Commutative f] [Std.Associative f] (x : (⟨1, ![n]⟩ : Shape).Idx → α) (init : u.Idx → α)
    (h : (⟨1, ![n]⟩ : Shape).ReducesTo axes ⟨0, ![]⟩) (hu : 0 < u.numel) (j : (⟨0, ![]⟩ : Shape).Idx) :
    Host.reduce f x init h hu j = (Finset.univ : Finset (Fin n)).fold f (init (Shape.Idx.first hu)) fun a => x (ix1 a) := by
  rw [Host.reduce_eq_fold, Finset.filter_true_of_mem fun i _ => funext fun b => b.elim0]
  exact fold_idx1 f _ x

end Cert.Lib.VectorReduce
-- ==== Proof.ReferenceValue.lean ====
/-
  The reference program's result, read index by index, is the specification `Cert.GraphConv.result` of its arguments.

  The reference spells the logistic function as `1 / (1 + exp (-z))` with the host's operations; on the extended reals that
  is the definition of the logistic function. Its softmax is the specification's, once its two reductions over the
  128 entries of `sem_w` are read as a fold of `max` and a sum over `Fin 128`. Its two matrix products are the two sums of
  `support` and `aggregate`, and its bias is broadcast along the rows.
-/
import proofs.«162851_g29283087024202_cont_9to1_711_2_alg».proof.Proof.Gen.ReferenceIdeal.Read
import proofs.«162851_g29283087024202_cont_9to1_711_2_alg».proof.Proof.GraphConvSpec
import proofs.«162851_g29283087024202_cont_9to1_711_2_alg».proof.Proof.LibVectorReduce
import Idealize.ShloMosaic.Lib.IdealHost
import Idealize.ShloMosaic.PureOps.Ideal.Laws

noncomputable section

open scoped BigOperators

namespace Cert.GraphConv.Reference

open Cert.ReferenceIdeal Cert.ReferenceIdeal.Gen Cert.ReferenceIdeal.Read Idealize.ShloMosaic Idealize.ShloMosaic.ValueIdx Cert.GraphConv
open Cert.Lib.VectorReduce

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x1, .f32⟩ : BufTy).Contents (Elt Ideal)) (x5 : (⟨S128, .f32⟩ : BufTy).Contents (Elt Ideal))

/-! ## The arguments by coordinates -/

/-- `x` by row and feature. -/
abbrev Xof : Fin 10000 → Fin 128 → EReal := fun r k => x0 (ix2 r k)
/-- The adjacency matrix by row and column. -/
abbrev Aof : Fin 10000 → Fin 10000 → EReal := fun r n => x1 (ix2 r n)
/-- `W` by input and output feature. -/
abbrev Wof : Fin 128 → Fin 128 → EReal := fun k f => x2 (ix2 k f)
/-- The bias by feature. -/
abbrev bof : Fin 128 → EReal := fun f => x3 (ix1 f)
/-- The node weights, a column, by feature. -/
abbrev nwof : Fin 128 → EReal := fun k => x4 (ix2 k (0 : Fin 1))
/-- The feature weights by feature. -/
abbrev swof : Fin 128 → EReal := fun k => x5 (ix1 k)

/-! ## Node attention -/

/-- The first product, at row `r`, is the row's dot product with the node weights. -/
theorem rowDot_eq (r : Fin 10000) (u : Fin 1) :
    val_main_v0 (F := Ideal) x0 x4 (ix2 r u) = rowDot (Xof x0) (nwof x4) r := by
  rw [val_main_v0_apply]
  unfold rowDot
  refine Finset.sum_congr rfl fun k _ => ?_
  have e1 : lidx_main_v0 (ix2 r u) k = ix2 r k := funext fun a => by
    match a with
    | ⟨0, _⟩ => rfl
    | ⟨1, _⟩ => rfl
  have e2 : ridx_main_v0 (ix2 r u) k = ix2 k (0 : Fin 1) := funext fun a => by
    match a with
    | ⟨0, _⟩ => rfl
    | ⟨1, _⟩ => exact Fin.ext (by show u.val = 0; omega)
  rw [e1, e2]

/-- `1 / (1 + exp (-z))` of that dot product is the logistic function of it. -/
theorem nodeAtt_eq (r : Fin 10000) (u : Fin 1) :
    val_main_v6 (F := Ideal) x0 x4 (ix2 r u) = nodeAtt (Xof x0) (nwof x4) r := by
  rw [val_main_v6_apply, val_main_v5_apply, val_main_cst_0_apply, val_main_v4_apply, val_main_v3_apply,
    val_main_cst_apply, val_main_v2_apply, val_main_v1_apply, rowDot_eq]
  simp only [Ideal.ofBits_def, Ideal.ofBits_one_f32, Ideal.hostDivf_def, Ideal.addf_def, Ideal.hostUnary_exp_def,
    Ideal.hostNegf_def, Ideal.negf_def]
  rfl

/-! ## Feature attention -/

/-- The maximum of `sem_w` as the reference takes it: the reduce over its one axis is the fold of `max` over `Fin 128`. -/
theorem peak_eq (j : S_.Idx) : val_main_v8 (F := Ideal) x5 j = peak (swof x5) := by
  rw [val_main_v8_apply, val_main_cst_2_apply]
  unfold val_main_v7
  rw [hostReduce_vector_scalar]
  rfl

/-- The shifted exponential at feature `k`. -/
theorem expShift_eq (k : Fin 128) : val_main_v12 (F := Ideal) x5 (ix1 k) = expShift (swof x5) k := by
  rw [val_main_v12_apply, val_main_v11_apply, val_main_v10_apply, val_main_v9_apply, peak_eq]
  rfl

/-- The softmax at feature `k`: the reduce of the exponentials to a scalar is their sum over `Fin 128`. -/
theorem semAtt_eq (k : Fin 128) : val_main_v16 (F := Ideal) x5 (ix1 k) = semAtt (swof x5) k := by
  rw [val_main_v16_apply, val_main_v15_apply, val_main_v14_apply, val_main_v13_apply, val_main_cst_3_apply, sum_idx1,
    expShift_eq]
  simp only [expShift_eq, Ideal.ofBits_def, Ideal.ofBits_zero_f32, zero_add, Ideal.hostDivf_def]
  rfl

/-! ## The two products and the bias -/

/-- A weighted entry of `x`. -/
theorem weighted_eq (r : Fin 10000) (k : Fin 128) :
    val_main_v21 (F := Ideal) x0 x4 x5 (ix2 r k)
      = Xof x0 r k * nodeAtt (Xof x0) (nwof x4) r * semAtt (swof x5) k := by
  have e17 : idx_main_v17 (ix2 r k) = ix2 r (0 : Fin 1) := funext fun a => by
    match a with
    | ⟨0, _⟩ => rfl
    | ⟨1, _⟩ => rfl
  have e19 : idx_main_v19 (idx_main_v20 (ix2 r k)) = ix1 k := funext fun a => by
    match a with
    | ⟨0, _⟩ => rfl
  rw [val_main_v21_apply, val_main_v18_apply, val_main_v17_apply, val_main_v20_apply, val_main_v19_apply, e17, e19,
    nodeAtt_eq, semAtt_eq]
  rfl

/-- The first matrix product at row `r`, feature `f`. -/
theorem support_eq (r : Fin 10000) (f : Fin 128) :
    val_main_v22 (F := Ideal) x0 x2 x4 x5 (ix2 r f) = support (Xof x0) (Wof x2) (nwof x4) (swof x5) r f := by
  rw [val_main_v22_apply]
  unfold support
  refine Finset.sum_congr rfl fun k _ => ?_
  have e1 : lidx_main_v22 (ix2 r f) k = ix2 r k := funext fun a => by
    match a with
    | ⟨0, _⟩ => rfl
    | ⟨1, _⟩ => rfl
  have e2 : ridx_main_v22 (ix2 r f) k = ix2 k f := funext fun a => by
    match a with
    | ⟨0, _⟩ => rfl
    | ⟨1, _⟩ => rfl
  rw [e1, e2, weighted_eq]

/-- The whole reference at row `r`, feature `f`. -/
theorem result_eq (r : Fin 10000) (f : Fin 128) :
    val_main_v26 (F := Ideal) x0 x1 x2 x3 x4 x5 (ix2 r f)
      = result (Xof x0) (Aof x1) (Wof x2) (bof x3) (nwof x4) (swof x5) r f := by
  have e24 : idx_main_v24 (idx_main_v25 (ix2 r f)) = ix1 f := funext fun a => by
    match a with
    | ⟨0, _⟩ => rfl
  rw [val_main_v26_apply, val_main_v23_apply, val_main_v25_apply, val_main_v24_apply, e24]
  unfold result aggregate
  show (∑ n : Fin 10000, _) + _ = _
  refine congrArg (· + x3 (ix1 f)) (Finset.sum_congr rfl fun n _ => ?_)
  have e1 : lidx_main_v23 (ix2 r f) n = ix2 r n := funext fun a => by
    match a with
    | ⟨0, _⟩ => rfl
    | ⟨1, _⟩ => rfl
  have e2 : ridx_main_v23 (ix2 r f) n = ix2 n f := funext fun a => by
    match a with
    | ⟨0, _⟩ => rfl
    | ⟨1, _⟩ => rfl
  rw [e1, e2, support_eq]

/-- The specification as an array over the reference's result shape. -/
abbrev resultArr : (⟨S10000x128, .f32⟩ : BufTy).Contents (Elt Ideal) :=
  fun i => result (Xof x0) (Aof x1) (Wof x2) (bof x3) (nwof x4) (swof x5) (i 0) (i 1)

/-- The reference's last stage is that array. -/
theorem reference_eq : val_main_v26 (F := Ideal) x0 x1 x2 x3 x4 x5 = resultArr x0 x1 x2 x3 x4 x5 := by
  funext i
  obtain ⟨r, f, rfl⟩ : ∃ (r : Fin 10000) (f : Fin 128), i = ix2 r f := ⟨i 0, i 1, eq_ix2 i⟩
  exact result_eq x0 x1 x2 x3 x4 x5 r f

end Cert.GraphConv.Reference

end
-- ==== Proof.lean ====
/-
  The certificate of the graph-convolution kernel against its reference.

  Both programs compute, on the extended reals, `result = A · ((x ∘ nodeAtt ∘ semAtt) · W) + b`: the rows of `x` weighted
  by the logistic function of their dot product with the node weights and by the softmax of the feature weights, times
  `W`, times the adjacency matrix, plus the bias (Proof/GraphConvSpec.lean).

  The kernel walks the adjacency matrix in 25 blocks of 400 rows. At the first block it computes the support matrix
  `(x ∘ nodeAtt ∘ semAtt) · W` once into a scratch buffer that it keeps for all later blocks; every block multiplies
  its adjacency rows by that matrix and adds the bias (Proof/KernelValue.lean, over the two stored values read at an
  index in Proof/SupportPayload.lean and Proof/AggregatePayload.lean). The reference is the same formula in host
  operations, its logistic function spelt `1 / (1 + exp (-z))` (Proof/ReferenceValue.lean). No law beyond the
  definitions joins the two sides: the sums are the same sums over the same index sets, so the finiteness of the inputs
  is never used. The three frame claims are the programs' runs with the results dropped, and the idealization rewrote
  no operation.
-/
import proofs.«162851_g29283087024202_cont_9to1_711_2_alg».proof.Defs
import proofs.«162851_g29283087024202_cont_9to1_711_2_alg».proof.Proof.Gen.Kernel
import proofs.«162851_g29283087024202_cont_9to1_711_2_alg».proof.Proof.Gen.Kernel.Skeleton
import proofs.«162851_g29283087024202_cont_9to1_711_2_alg».proof.Proof.Gen.Kernel.Launch
import proofs.«162851_g29283087024202_cont_9to1_711_2_alg».proof.Proof.Gen.Kernel.Points
import proofs.«162851_g29283087024202_cont_9to1_711_2_alg».proof.Proof.Gen.Kernel.Frame
import proofs.«162851_g29283087024202_cont_9to1_711_2_alg».proof.Proof.Gen.KernelIdeal
import proofs.«162851_g29283087024202_cont_9to1_711_2_alg».proof.Proof.Gen.KernelIdeal.Skeleton
import proofs.«162851_g29283087024202_cont_9to1_711_2_alg».proof.Proof.Gen.KernelIdeal.Launch
import proofs.«162851_g29283087024202_cont_9to1_711_2_alg».proof.Proof.Gen.KernelIdeal.Points
import proofs.«162851_g29283087024202_cont_9to1_711_2_alg».proof.Proof.Gen.KernelIdeal.Frame
import proofs.«162851_g29283087024202_cont_9to1_711_2_alg».proof.Proof.Gen.ReferenceIdeal
import proofs.«162851_g29283087024202_cont_9to1_711_2_alg».proof.Proof.Gen.Pre_finite_inputs
import proofs.«162851_g29283087024202_cont_9to1_711_2_alg».proof.Proof.Gen.KernelIdeal.Value
import proofs.«162851_g29283087024202_cont_9to1_711_2_alg».proof.Proof.Gen.ReferenceIdeal.Run
import proofs.«162851_g29283087024202_cont_9to1_711_2_alg».proof.Proof.Gen.ReferenceIdeal.Read
import proofs.«162851_g29283087024202_cont_9to1_711_2_alg».proof.Proof.KernelValue
import proofs.«162851_g29283087024202_cont_9to1_711_2_alg».proof.Proof.ReferenceValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the specification of its arguments, and the reference's at the
    same function of arguments that agree. -/
theorem algebraic : Cert.algebraic_KernelIdeal_ReferenceIdeal := by
  intro m ρ m' ρ' _ hagree
  refine ⟨fun c => Cert.GraphConv.KernelRun.G m c, Cert.GraphConv.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.GraphConv.Reference.reference_eq, (hagree c).1, (hagree c).2.1,
    (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
